-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x1x900 : Shape := ⟨4, ![2, 128, 1, 900]⟩
abbrev S_ : Shape := ⟨0, ![]⟩

class Facts : Prop where
  bcast_S_S2x128x1x900 : S_.BroadcastsInDim S2x128x1x900 (![] : Fin 0 → Fin S2x128x1x900.rank)
  reducesTo_S2x128x1x900_S_d0_1_2_3 : S2x128x1x900.ReducesTo [0, 1, 2, 3] S_
  h_S_ : 0 < S_.numel

variable [Facts]

def fn {F : FTy → Type} [FloatOps F] (main_arg0 : FVec F S2x128x1x900 .f32) (main_arg1 : FVec F S2x128x1x900 .f32) : IVec S_ 1 :=
  let main_v0 : FVec F S2x128x1x900 .f32 := Host.absf main_arg0
  let main_cst : FVec F S_ .f32 := constant S_ .f32 0x7F800000#32
  let main_v1 : FVec F S2x128x1x900 .f32 := broadcastInDim S2x128x1x900 ![] bcast_S_S2x128x1x900 main_cst
  let main_v2 : IVec S2x128x1x900 1 := cmpf .olt main_v0 main_v1
  let main_c : IVec S_ 1 := constantI S_ 1 1#1
  let main_v3 : IVec S_ 1 := (fun x v => Host.reduce IntOp.andi x v reducesTo_S2x128x1x900_S_d0_1_2_3 h_S_) main_v2 main_c
  let main_v4 : FVec F S2x128x1x900 .f32 := Host.absf main_arg1
  let main_cst_0 : FVec F S_ .f32 := constant S_ .f32 0x7F800000#32
  let main_v5 : FVec F S2x128x1x900 .f32 := broadcastInDim S2x128x1x900 ![] bcast_S_S2x128x1x900 main_cst_0
  let main_v6 : IVec S2x128x1x900 1 := cmpf .olt main_v4 main_v5
  let main_c_1 : IVec S_ 1 := constantI S_ 1 1#1
  let main_v7 : IVec S_ 1 := (fun x v => Host.reduce IntOp.andi x v reducesTo_S2x128x1x900_S_d0_1_2_3 h_S_) main_v6 main_c_1
  let main_v8 : IVec S_ 1 := andi main_v3 main_v7
  main_v8
-- ==== Kernel.lean ====
abbrev S2x128x1x900 : Shape := ⟨4, ![2, 128, 1, 900]⟩
abbrev S2x128x900 : Shape := ⟨3, ![2, 128, 900]⟩
abbrev S2x128x900x900 : Shape := ⟨4, ![2, 128, 900, 900]⟩
abbrev S1x8x900 : Shape := ⟨3, ![1, 8, 900]⟩
abbrev S1x8x900x900 : Shape := ⟨4, ![1, 8, 900, 900]⟩
abbrev S1x8x1x900 : Shape := ⟨4, ![1, 8, 1, 900]⟩
abbrev S1x8x900x1 : Shape := ⟨4, ![1, 8, 900, 1]⟩

abbrev nBuf : Space → Nat
  | .hbm => 5
  | .vmem => 6
  | .smem => 0
  | _ => 0

abbrev bufTy : (tb : Table) → Fin (tcTables nBuf tb) → BufTy
  | .hbm, ⟨0, _⟩ => ⟨S2x128x1x900, .f32⟩
  | .hbm, ⟨1, _⟩ => ⟨S2x128x1x900, .f32⟩
  | .hbm, ⟨2, _⟩ => ⟨S2x128x900, .f32⟩
  | .hbm, ⟨3, _⟩ => ⟨S2x128x900, .f32⟩
  | .hbm, ⟨4, _⟩ => ⟨S2x128x900x900, .f32⟩
  | .local _ .vmem, ⟨0, _⟩ => ⟨S1x8x900, .f32⟩
  | .local _ .vmem, ⟨1, _⟩ => ⟨S1x8x900, .f32⟩
  | .local _ .vmem, ⟨2, _⟩ => ⟨S1x8x900, .f32⟩
  | .local _ .vmem, ⟨3, _⟩ => ⟨S1x8x900, .f32⟩
  | .local _ .vmem, ⟨4, _⟩ => ⟨S1x8x900x900, .f32⟩
  | .local _ .vmem, ⟨5, _⟩ => ⟨S1x8x900x900, .f32⟩
  | _, _ => ⟨S2x128x1x900, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x900 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x900x900 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x128x1x900_S2x128x900 : S2x128x1x900.ShapeCasts S2x128x900
  inb_S1x8x900_S1x8x900_0_0_0 : ∀ a, (![0, 0, 0] : Fin 3 → Nat) a + S1x8x900.size a ≤ S1x8x900.size a
  h_S1x8x900 : 0 < S1x8x900.numel
  shapeCasts_S1x8x900_S1x8x900 : S1x8x900.ShapeCasts S1x8x900
  shapeCasts_S1x8x900_S1x8x1x900 : S1x8x900.ShapeCasts S1x8x1x900
  shapeCasts_S1x8x900_S1x8x900x1 : S1x8x900.ShapeCasts S1x8x900x1
  broadcasts_S1x8x1x900_S1x8x900x900 : S1x8x1x900.Broadcasts S1x8x900x900
  broadcasts_S1x8x900x1_S1x8x900x900 : S1x8x900x1.Broadcasts S1x8x900x900
  inb_S1x8x900x900_S1x8x900x900_0_0_0_0 : ∀ a, (![0, 0, 0, 0] : Fin 4 → Nat) a + S1x8x900x900.size a ≤ S1x8x900x900.size a
  h_S1x8x900x900 : 0 < S1x8x900x900.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x900.size a ≤ S2x128x900.size a
  hwx0_0 : ∀ i : grid0.Coords, EltTy.bits .f32 = 32 ∨ (Rect.block (s := S2x128x900) S1x8x900.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x900.size a ≤ S2x128x900.size a
  hwx0_1 : ∀ i : grid0.Coords, EltTy.bits .f32 = 32 ∨ (Rect.block (s := S2x128x900) S1x8x900.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x900x900.size a ≤ S2x128x900x900.size a
  hwx0_2 : ∀ i : grid0.Coords, EltTy.bits .f32 = 32 ∨ (Rect.block (s := S2x128x900x900) S1x8x900x900.size (cc0_transform_2 i) (hinb0_2 i)).WholeWords (EltTy.packing .f32)

variable [Facts₀]

abbrev win0_0 : Pipeline.Window sig grid0 :=
  Pipeline.Window.ofSpec (Memref.whole main_v0) S1x8x900.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x900.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x900x900.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x128x1x900 : Shape := ⟨4, ![2, 128, 1, 900]⟩
abbrev S2x128x900 : Shape := ⟨3, ![2, 128, 900]⟩
abbrev S2x128x900x1 : Shape := ⟨4, ![2, 128, 900, 1]⟩
abbrev S2x128x900x900 : Shape := ⟨4, ![2, 128, 900, 900]⟩

abbrev nBuf : Space → Nat
  | .hbm => 10
  | .vmem => 0
  | .smem => 0
  | _ => 0

abbrev bufTy : (tb : Table) → Fin (tcTables nBuf tb) → BufTy
  | .hbm, ⟨0, _⟩ => ⟨S2x128x1x900, .f32⟩
  | .hbm, ⟨1, _⟩ => ⟨S2x128x1x900, .f32⟩
  | .hbm, ⟨2, _⟩ => ⟨S2x128x900, .f32⟩
  | .hbm, ⟨3, _⟩ => ⟨S2x128x900, .f32⟩
  | .hbm, ⟨4, _⟩ => ⟨S2x128x1x900, .f32⟩
  | .hbm, ⟨5, _⟩ => ⟨S2x128x900x1, .f32⟩
  | .hbm, ⟨6, _⟩ => ⟨S2x128x900x900, .f32⟩
  | .hbm, ⟨7, _⟩ => ⟨S2x128x900x900, .f32⟩
  | .hbm, ⟨8, _⟩ => ⟨S2x128x900x900, .f32⟩
  | .hbm, ⟨9, _⟩ => ⟨S2x128x900x900, .f32⟩
  | _, _ => ⟨S2x128x1x900, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  shapeCasts_S2x128x1x900_S2x128x900 : S2x128x1x900.ShapeCasts S2x128x900
  bcast_S2x128x900_S2x128x1x900_0_1_3 : S2x128x900.BroadcastsInDim S2x128x1x900 (![0, 1, 3] : Fin 3 → Fin S2x128x1x900.rank)
  bcast_S2x128x900_S2x128x900x1_0_1_2 : S2x128x900.BroadcastsInDim S2x128x900x1 (![0, 1, 2] : Fin 3 → Fin S2x128x900x1.rank)
  bcast_S2x128x1x900_S2x128x900x900_0_1_2_3 : S2x128x1x900.BroadcastsInDim S2x128x900x900 (![0, 1, 2, 3] : Fin 4 → Fin S2x128x900x900.rank)
  bcast_S2x128x900x1_S2x128x900x900_0_1_2_3 : S2x128x900x1.BroadcastsInDim S2x128x900x900 (![0, 1, 2, 3] : Fin 4 → Fin S2x128x900x900.rank)

variable [Facts₀]

class Facts : Prop extends Facts₀ where

variable [Facts]
-- ==== Proof.PairDiff.lean ====
/-
  The all-pairs absolute difference of two row families.

  Both arguments are arrays of shape [2, 128, 1, 900]: for a batch `b` and a channel `c`, a row of 900 numbers
  (the unit axis carries nothing). The result has shape [2, 128, 900, 900], and its entry at `(b, c, i, j)` is

      | L (b, c, 0, j) - R (b, c, 0, i) |

  — the left row runs along the LAST axis `j`, the right row along the axis `i` before it. This file states that
  function once (`pairDiff`), over any float instance, with the two places an output index reads named
  (`leftAt`, `rightAt`); and it reads a row-major reshape that drops the unit axis, [2, 128, 1, 900] to
  [2, 128, 900], at an index: position `(b, c, k)` of the result is position `(b, c, 0, k)` of the operand, since
  both have row-major rank `(b * 128 + c) * 900 + k`.
-/
import Idealize.ShloMosaic.PureOps.Ideal
import Idealize.ShloMosaic.Lib.ValueIdx
import Idealize.ShloMosaic.Lib.Pipeline.Value

noncomputable section

namespace Cert.PairDiff

open Idealize.ShloMosaic Idealize.ShloMosaic.ValueIdx

variable {F : FTy → Type} [FloatOps F]

/-- The shape of each argument: 2 batches, 128 channels, a unit axis, 900 positions. -/
abbrev ArgShape : Shape := ⟨4, ![2, 128, 1, 900]⟩
/-- The arguments with the unit axis dropped. -/
abbrev RowShape : Shape := ⟨3, ![2, 128, 900]⟩
/-- The shape of the result: per batch and channel a 900 by 900 table. -/
abbrev OutShape : Shape := ⟨4, ![2, 128, 900, 900]⟩

/-- Output entry `(b, c, i, j)` reads the left argument at `(b, c, 0, j)`. -/
abbrev leftAt (i : OutShape.Idx) : ArgShape.Idx := ix4 (i 0) (i 1) (0 : Fin 1) (i 3)

/-- Output entry `(b, c, i, j)` reads the right argument at `(b, c, 0, i)`. -/
abbrev rightAt (i : OutShape.Idx) : ArgShape.Idx := ix4 (i 0) (i 1) (0 : Fin 1) (i 2)

/-- The all-pairs absolute difference: entry `(b, c, i, j)` is `|L (b, c, 0, j) - R (b, c, 0, i)|`. -/
def pairDiff (L R : ArgShape.Idx → Elt F .f32) : OutShape.Idx → Elt F .f32 :=
  fun i => FloatOps.absf (FloatOps.subf (L (leftAt i)) (R (rightAt i)))

theorem pairDiff_apply (L R : ArgShape.Idx → Elt F .f32) (i : OutShape.Idx) :
    pairDiff L R i = FloatOps.absf (FloatOps.subf (L (leftAt i)) (R (rightAt i))) := rfl

/-- Where entry `(b, c, k)` of the reshaped array sits in the operand: `(b, c, 0, k)`. -/
abbrev unsqueeze (k : RowShape.Idx) : ArgShape.Idx := ix4 (k 0) (k 1) (0 : Fin 1) (k 2)

/-- Dropping the unit axis by a row-major reshape moves nothing: entry `(b, c, k)` is the operand's entry
    `(b, c, 0, k)`, both at row-major rank `(b * 128 + c) * 900 + k`. For any witness of the shapes' compatibility. -/
theorem dropUnit_apply {α : Type} (x : ArgShape.Idx → α) (h : ArgShape.ShapeCasts RowShape) (k : RowShape.Idx) :
    shapeCast RowShape x h k = x (unsqueeze k) :=
  shapeCast_apply x h k (unsqueeze k) (by
    rw [Shape.rowMajor_val_four, Shape.rowMajor_val_three]
    show (((k 0).val * 128 + (k 1).val) * 1 + 0) * 900 + (k 2).val = ((k 0).val * 128 + (k 1).val) * 900 + (k 2).val
    omega)

end Cert.PairDiff

end
-- ==== Proof.ReferenceIsPairDiff.lean ====
/-
  The reference computes the all-pairs absolute difference.

  The host program drops the unit axis of both arguments, puts the left rows back on a unit axis BEFORE the last one
  ([2, 128, 1, 900]) and the right rows on a unit axis AFTER it ([2, 128, 900, 1]), stretches both to
  [2, 128, 900, 900], subtracts and takes the absolute value. Read at an output index `(b, c, i, j)`, each stretch keeps
  the coordinates on the non-unit axes and sends the unit axis to `0`; so the left operand is read at `(b, c, j)` of
  the reshaped array, that is `(b, c, 0, j)` of the argument, and the right operand at `(b, c, i)`, that is
  `(b, c, 0, i)`. On the extended reals the host's absolute value is the same function as the vector unit's,
  `max x (-x)`. Hence the last stage is `pairDiff` of the two arguments, index by index.
-/
import proofs.«130861_j57294863728910_2_alg».proof.Proof.Gen.ReferenceIdeal.Read
import proofs.«130861_j57294863728910_2_alg».proof.Proof.PairDiff

noncomputable section

namespace Cert.ReferenceIdeal.RefValue

open Idealize.ShloMosaic Cert.ReferenceIdeal Cert.ReferenceIdeal.Gen Cert.ReferenceIdeal.Read Cert.PairDiff

/-- The left operand of the subtraction at `(b, c, i, j)`: the two stretches and the re-inserted unit axis lead back
    to entry `(b, c, j)` of the reshaped argument, which is entry `(b, c, 0, j)` of the argument. -/
theorem left_read (x0 : ArgShape.Idx → Elt Ideal .f32) (i : OutShape.Idx) :
    val_main_v4 (F := Ideal) x0 i = x0 (leftAt i) := by
  rw [val_main_v4_apply, val_main_v2_apply]
  unfold val_main_v0
  refine (dropUnit_apply x0 _ _).trans (congrArg x0 ?_)
  funext a
  match a with
  | ⟨0, _⟩ => rfl
  | ⟨1, _⟩ => rfl
  | ⟨2, _⟩ => rfl
  | ⟨3, _⟩ => rfl

/-- The right operand at `(b, c, i, j)`: entry `(b, c, i)` of the reshaped argument, that is `(b, c, 0, i)`. -/
theorem right_read (x1 : ArgShape.Idx → Elt Ideal .f32) (i : OutShape.Idx) :
    val_main_v5 (F := Ideal) x1 i = x1 (rightAt i) := by
  rw [val_main_v5_apply, val_main_v3_apply]
  unfold val_main_v1
  refine (dropUnit_apply x1 _ _).trans (congrArg x1 ?_)
  funext a
  match a with
  | ⟨0, _⟩ => rfl
  | ⟨1, _⟩ => rfl
  | ⟨2, _⟩ => rfl
  | ⟨3, _⟩ => rfl

/-- The reference's result, as a function of the two arguments, is their all-pairs absolute difference. -/
theorem result_eq (x0 x1 : ArgShape.Idx → Elt Ideal .f32) :
    val_main_v7 (F := Ideal) x0 x1 = pairDiff (F := Ideal) x0 x1 := by
  funext i
  rw [val_main_v7_apply, val_main_v6_apply, left_read, right_read, Ideal.hostAbsf_def]
  rfl

end Cert.ReferenceIdeal.RefValue

end
-- ==== Proof.KernelPoint.lean ====
/-
  What one grid point of the kernel writes back.

  The grid is 2 batches by 16 channel tiles. At the point `(b, ct)` the kernel is handed the 8 rows
  `8 * ct, …, 8 * ct + 7` of batch `b` of each (reshaped) argument — blocks of shape [1, 8, 900] — and fills the block
  of shape [1, 8, 900, 900] of the result at block index `(b, ct, 0, 0)`. Inside the block, entry `(0, c', i, j)` is
  `|l (0, c', j) - r (0, c', i)|` of the two row blocks: the left block is given a unit axis before its last one and
  stretched down the rows, the right block a unit axis after its last one and stretched along the columns.

  A block's entry `z` sits in its array at `block index * block size + z`, axis by axis; and the arrays the kernel
  reads are the arguments with the unit axis dropped, so entry `(b, c, k)` there is entry `(b, c, 0, k)` of the
  argument. Put together: entry `y` of the block written at a point is `pairDiff` of the two ARGUMENTS at the place
  `y` takes in the result — the block of `pairDiff` that the point's rectangle cuts out.
-/
import proofs.«130861_j57294863728910_2_alg».proof.Proof.Gen.KernelIdeal.Value
import proofs.«130861_j57294863728910_2_alg».proof.Proof.PairDiff
import Idealize.ShloMosaic.Lib.StableHlo.Run

noncomputable section

namespace Cert.KernelIdeal.PairValue

open Cert.KernelIdeal Cert.KernelIdeal.Gen Cert.KernelIdeal.Value Idealize.ShloMosaic Idealize.ShloMosaic.TcCoe Idealize.SL.Sem
open Idealize.ShloMosaic.StableHlo Cert.PairDiff
open Idealize.ShloMosaic.Pipeline (Dat)

variable {F : FTy → Type} [FloatOps F]
variable (m : (ℓ : Loc nD τ sig) → Buf (Elt F) ℓ) (ρ : Dev nD → PrngReg)

/-- The kernel's loads and its store start at the origin of their blocks. -/
theorem origin3 : (![0, 0, 0] : Fin 3 → Nat) = fun _ => 0 := funext fun a => by fin_cases a <;> rfl

/-! ## The arrays the region reads -/

/-- The first array the region reads is the left argument with its unit axis dropped. -/
theorem entry_left (c : Dev nD) :
    (V m c main_v0 : S2x128x900.Idx → Elt F .f32)
      = shapeCast S2x128x900 (m ((c : Thread nD τ).loc main_arg0)) shapeCasts_S2x128x1x900_S2x128x900 := by
  dsimp only [Gen.V, Gen.hostOps0]; after_results; rfl

/-- The second is the right argument with its unit axis dropped. -/
theorem entry_right (c : Dev nD) :
    (V m c main_v1 : S2x128x900.Idx → Elt F .f32)
      = shapeCast S2x128x900 (m ((c : Thread nD τ).loc main_arg1)) shapeCasts_S2x128x1x900_S2x128x900 := by
  dsimp only [Gen.V, Gen.hostOps0]; after_results; rfl

/-! ## The block indices over the grid -/

/-- Decided over the 32 points: both input blocks sit at the output block's batch and channel tile and at
    position 0; the output block sits at row 0 and column 0; the batch is below 2 and the tile below 16. -/
theorem block_indices : ∀ t : Fin cfg0.N,
    win0_0.index t (0 : Fin 3) = win0_2.index t (0 : Fin 4) ∧ win0_0.index t (1 : Fin 3) = win0_2.index t (1 : Fin 4)
    ∧ win0_0.index t (2 : Fin 3) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0
    ∧ win0_2.index t (0 : Fin 4) ≤ 1 ∧ win0_2.index t (1 : Fin 4) ≤ 15 :=
  (by decide +kernel : ∀ t : Fin grid0.N, _)

/-! ## The body, over any two row blocks -/

/-- What the body leaves in the output block, from any two row blocks: entry `(0, c', i, j)` is
    `|x0 (0, c', j) - x1 (0, c', i)|`. -/
theorem body_apply (x0 x1 : Vec F S1x8x900 .f32) (y : S1x8x900x900.Idx) :
    out0_2 x0 x1 y = FloatOps.absf (FloatOps.subf (x0 (ix2_0 y)) (x1 (ix2_1 y))) := by
  unfold out0_2
  simp only [View.ld_unit_zero (S := S1x8x900) origin3]
  exact canon2_eq x0 x1 y

/-! ## The input blocks, read in the arguments -/

/-- The left row block at the place output entry `y` reads it is the left argument at the place the result's
    entry under `y` reads it. -/
theorem left_block (c : Dev nD) (t : Fin cfg0.N) (y : S1x8x900x900.Idx) :
    iblk m c 0 t (ix2_0 y)
      = m ((c : Thread nD τ).loc main_arg0) (leftAt (((cfg0.win 2).blk t).view.emb y)) := by
  show V m c main_v0 (((cfg0.win 0).blk t).view.emb (ix2_0 y)) = _
  refine (congrFun (entry_left m c) _).trans ?_
  refine (dropUnit_apply _ _ _).trans (congrArg _ ?_)
  obtain ⟨e0, e1, e2, _, _, _, _, e7, _, _⟩ := block_indices t
  have hy0 : (y 0).val < 1 := (y 0).isLt
  funext a; apply Fin.ext
  match a with
  | ⟨0, _⟩ => show win0_0.index t (0 : Fin 3) * 1 + 1 * 0 = win0_2.index t (0 : Fin 4) * 1 + 1 * (y 0).val; omega
  | ⟨1, _⟩ => show win0_0.index t (1 : Fin 3) * 8 + 1 * (y 1).val = win0_2.index t (1 : Fin 4) * 8 + 1 * (y 1).val; omega
  | ⟨2, _⟩ => rfl
  | ⟨3, _⟩ => show win0_0.index t (2 : Fin 3) * 900 + 1 * (y 3).val = win0_2.index t (3 : Fin 4) * 900 + 1 * (y 3).val; omega

/-- The same for the right row block, read along the result's row axis. -/
theorem right_block (c : Dev nD) (t : Fin cfg0.N) (y : S1x8x900x900.Idx) :
    iblk m c 1 t (ix2_1 y)
      = m ((c : Thread nD τ).loc main_arg1) (rightAt (((cfg0.win 2).blk t).view.emb y)) := by
  show V m c main_v1 (((cfg0.win 1).blk t).view.emb (ix2_1 y)) = _
  refine (congrFun (entry_right m c) _).trans ?_
  refine (dropUnit_apply _ _ _).trans (congrArg _ ?_)
  obtain ⟨_, _, _, e3, e4, e5, e6, _, _, _⟩ := block_indices t
  have hy0 : (y 0).val < 1 := (y 0).isLt
  funext a; apply Fin.ext
  match a with
  | ⟨0, _⟩ => show win0_1.index t (0 : Fin 3) * 1 + 1 * 0 = win0_2.index t (0 : Fin 4) * 1 + 1 * (y 0).val; omega
  | ⟨1, _⟩ => show win0_1.index t (1 : Fin 3) * 8 + 1 * (y 1).val = win0_2.index t (1 : Fin 4) * 8 + 1 * (y 1).val; omega
  | ⟨2, _⟩ => rfl
  | ⟨3, _⟩ => show win0_1.index t (2 : Fin 3) * 900 + 1 * (y 2).val = win0_2.index t (2 : Fin 4) * 900 + 1 * (y 2).val; omega

/-! ## The point's write-back -/

/-- What point `t` writes back is the block of `pairDiff` of the two arguments that the point's rectangle cuts out. -/
theorem flushed_eq (c : Dev nD) (t : Fin cfg0.N) :
    (dats m 0 c).flushed 2 t
      = ((cfg0.win 2).blk t).view.read (Elt F)
          (pairDiff (m ((c : Thread nD τ).loc main_arg0)) (m ((c : Thread nD τ).loc main_arg1))) := by
  rw [flushed2]
  funext y
  show out0_2 (iblk m c 0 t) (iblk m c 1 t) y
    = pairDiff (m ((c : Thread nD τ).loc main_arg0)) (m ((c : Thread nD τ).loc main_arg1)) (((cfg0.win 2).blk t).view.emb y)
  refine (body_apply (iblk m c 0 t) (iblk m c 1 t) y).trans ?_
  rw [pairDiff_apply, ← left_block m c t y, ← right_block m c t y]

end Cert.KernelIdeal.PairValue

end
-- ==== Proof.KernelCover.lean ====
/-
  The blocks the kernel writes tile the result.

  The result has shape [2, 128, 900, 900] and a block has shape [1, 8, 900, 900]; the grid point `(b, ct)` writes the
  block at block index `(b, ct, 0, 0)`, that is the entries `(b, c, i, j)` with `8 * ct ≤ c < 8 * ct + 8` and `i`, `j`
  anything. So the entry `(b, c, i, j)` lies in the block of the point `(b, c / 8)`: every entry of the result is
  written by some point.
-/
import proofs.«130861_j57294863728910_2_alg».proof.Proof.Gen.KernelIdeal.Value

noncomputable section

namespace Cert.KernelIdeal.PairValue

open Cert.KernelIdeal Cert.KernelIdeal.Gen Idealize.ShloMosaic Idealize.ShloMosaic.TcCoe Idealize.SL.Sem

/-- An entry of the result is in point `t`'s block exactly when, on each axis, its coordinate lies in the block's
    range: from block index times block size, for block size many. -/
theorem mem_block (t : Fin cfg0.N) (i : S2x128x900x900.Idx) :
    i ∈ ((cfg0.win 2).blk t).view.set ↔ ∀ a : Fin 4, win0_2.index t a * S1x8x900x900.size a ≤ (i a).val
      ∧ (i a).val < win0_2.index t a * S1x8x900x900.size a + S1x8x900x900.size a := by
  show i ∈ ((View.whole main_v2).slice (win0_2.rect t)).set ↔ _
  rw [View.set_slice_whole, Rect.mem_set_unit]
  exact Iff.rfl

/-- Every batch and channel tile is some grid point's block index (decided over the grid). -/
theorem block_onto : ∀ (b : Fin 2) (ct : Fin 16), ∃ t : Fin cfg0.N, win0_2.index t = ![b.val, ct.val, 0, 0] :=
  (by decide +kernel : ∀ (b : Fin 2) (ct : Fin 16), ∃ t : Fin grid0.N, win0_2.index t = ![b.val, ct.val, 0, 0])

/-- Every entry `(b, c, i, j)` of the result is in the block some point writes back: the point `(b, c / 8)`. -/
theorem cover (i : S2x128x900x900.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 900 := (i 2).isLt
  have hi3 : (i 3).val < 900 := (i 3).isLt
  obtain ⟨t, ht⟩ := block_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 900 ≤ (i 2).val ∧ (i 2).val < win0_2.index t (2 : Fin 4) * 900 + 900; omega
  | ⟨3, _⟩ => show win0_2.index t (3 : Fin 4) * 900 ≤ (i 3).val ∧ (i 3).val < win0_2.index t (3 : Fin 4) * 900 + 900; omega

end Cert.KernelIdeal.PairValue

end
-- ==== Proof.KernelIsPairDiff.lean ====
/-
  The kernel computes the all-pairs absolute difference.

  Each grid point writes back the block of `pairDiff` of the two arguments that its rectangle cuts out, and the
  blocks tile the result; so after the last point the result array IS `pairDiff` of the arguments, whole. The
  kernel's run, with the result array so named and the arguments unchanged, follows.
-/
import proofs.«130861_j57294863728910_2_alg».proof.Proof.KernelPoint
import proofs.«130861_j57294863728910_2_alg».proof.Proof.KernelCover

noncomputable section

namespace Cert.KernelIdeal.PairValue

open Cert.KernelIdeal Cert.KernelIdeal.Gen Cert.KernelIdeal.Value Idealize.ShloMosaic Idealize.ShloMosaic.TcCoe Idealize.SL.Sem
open Cert.PairDiff
open Idealize.ShloMosaic.Pipeline (Dat)

variable {F : FTy → Type} [FloatOps F]
variable (m : (ℓ : Loc nD τ sig) → Buf (Elt F) ℓ) (ρ : Dev nD → PrngReg)

/-- The result array after the last grid point is `pairDiff` of the two arguments. -/
theorem final (c : Dev nD) :
    (dats m 0 c).arrAt 2 cfg0.N
      = pairDiff (m ((c : Thread nD τ).loc main_arg0)) (m ((c : Thread nD τ).loc main_arg1)) :=
  (dats m 0 c).arrAt_eq_of_cover 2
    (pairDiff (m ((c : Thread nD τ).loc main_arg0)) (m ((c : Thread nD τ).loc main_arg1)))
    (fun t _ => flushed_eq m c t) cover

/-- Every weakly fair execution of the kernel's program terminates with the result at `pairDiff` of the arguments
    and the arguments unchanged. -/
theorem run : θ_run defs (onTc (τ := τ) (main (F := F))) ⟨m, fun _ => 0, ρ⟩ fun r => ∀ c : Dev nD,
      r.2.mem ((c : Thread nD τ).loc main_v2)
        = pairDiff (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.PairValue

end
-- ==== Proof.lean ====
/-
  The all-pairs absolute difference, tiled over batches and channel tiles, against its whole-array form.

  Both programs take two arrays of shape [2, 128, 1, 900] — per batch `b` and channel `c` a row of 900 numbers — and
  return the array of shape [2, 128, 900, 900] with

      out (b, c, i, j) = | l (b, c, 0, j) - r (b, c, 0, i) |.

  The reference drops the unit axis, stretches the left rows down a new row axis and the right rows along a new
  column axis, subtracts and takes the absolute value, all on whole arrays. The kernel drops the unit axis the same
  way and then walks a grid of 2 batches by 16 tiles of 8 channels: at each point it is handed the 8 left rows and the
  8 right rows of that tile and writes the 8 tables of 900 by 900 differences; the 32 blocks tile the result.

  On the extended reals the two are the same function, with no condition on the inputs: the same subtraction and
  the same absolute value `max x (-x)` are applied to the same two entries of the arguments at every output index —
  only the way of walking the result differs. So the finiteness precondition is never opened.

    * `PairDiff` states that function once, and reads the reshape that drops the unit axis at an index;
    * `ReferenceIsPairDiff` reads the reference's stages at an output index: its result is that function;
    * `KernelPoint` shows what one grid point writes back is the block of that function its rectangle cuts out,
      `KernelCover` that the blocks tile the result, `KernelIsPairDiff` that the result array is therefore that
      function, whole.

  Below, the three programs' runs give the three frame claims; the idealization rewrote nothing, so there is nothing
  to preserve; and the two idealized runs, from memories agreeing on the arguments, end at the same array.
-/
import proofs.«130861_j57294863728910_2_alg».proof.Defs
import proofs.«130861_j57294863728910_2_alg».proof.Proof.Gen.Kernel
import proofs.«130861_j57294863728910_2_alg».proof.Proof.Gen.Kernel.Skeleton
import proofs.«130861_j57294863728910_2_alg».proof.Proof.Gen.Kernel.Launch
import proofs.«130861_j57294863728910_2_alg».proof.Proof.Gen.Kernel.Points
import proofs.«130861_j57294863728910_2_alg».proof.Proof.Gen.Kernel.Frame
import proofs.«130861_j57294863728910_2_alg».proof.Proof.Gen.KernelIdeal
import proofs.«130861_j57294863728910_2_alg».proof.Proof.Gen.KernelIdeal.Skeleton
import proofs.«130861_j57294863728910_2_alg».proof.Proof.Gen.KernelIdeal.Launch
import proofs.«130861_j57294863728910_2_alg».proof.Proof.Gen.KernelIdeal.Points
import proofs.«130861_j57294863728910_2_alg».proof.Proof.Gen.KernelIdeal.Frame
import proofs.«130861_j57294863728910_2_alg».proof.Proof.Gen.ReferenceIdeal
import proofs.«130861_j57294863728910_2_alg».proof.Proof.Gen.Pre_finite_inputs
import proofs.«130861_j57294863728910_2_alg».proof.Proof.Gen.KernelIdeal.Value
import proofs.«130861_j57294863728910_2_alg».proof.Proof.Gen.ReferenceIdeal.Run
import proofs.«130861_j57294863728910_2_alg».proof.Proof.Gen.ReferenceIdeal.Read
import proofs.«130861_j57294863728910_2_alg».proof.Proof.PairDiff
import proofs.«130861_j57294863728910_2_alg».proof.Proof.ReferenceIsPairDiff
import proofs.«130861_j57294863728910_2_alg».proof.Proof.KernelIsPairDiff
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories agreeing on the two arguments, the kernel's result and the reference's are both the all-pairs
    absolute difference of those arguments: equal, entry by entry, as extended reals. -/
theorem algebraic : Cert.algebraic_KernelIdeal_ReferenceIdeal := by
  intro m ρ m' ρ' _ hagree
  refine ⟨_, Cert.KernelIdeal.PairValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
